-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S65536x1024 : Shape := ⟨2, ![65536, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S65536x1024, .f32⟩
  | .hbm, ⟨2, _⟩ => ⟨S65536x1024, .f32⟩
  | .hbm, ⟨3, _⟩ => ⟨S64x1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x1024x1024_S65536x1024 : S64x1024x1024.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S65536x1024_S64x1024x1024 : S65536x1024.ShapeCasts S64x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S64x1024x1024 : Shape := ⟨3, ![64, 1024, 1024]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .hbm, ⟨2, _⟩ => ⟨S_, .f32⟩
  | .hbm, ⟨3, _⟩ => ⟨S64x1024x1024, .f32⟩
  | .hbm, ⟨4, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)

variable [Facts₀]

class Facts : Prop extends Facts₀ where

variable [Facts]
-- ==== Proof.ScaledSquare.lean ====
/-
  The function both programs compute.  For an array `x` of f32 values of any shape `s`,
  `scaledSquare x` is, index by index, `(x i · x i) · c`, with `c` the f32 constant whose binary
  word is `0x3DCCCCCD` (the float nearest to one tenth).  The constant is the same word in the
  kernel's body and in the reference, so it is never evaluated: the statement holds for every
  interpretation `F` of the float operations, the extended reals among them, and needs no law of
  arithmetic at all — only the bookkeeping of which element sits where.

  That bookkeeping is the content of this file: `scaledSquare` is computed element by element, so
  it commutes with every re-indexing of the array; in particular viewing a [64, 1024, 1024] array
  as [65536, 1024] (same elements, same row-major order), applying `scaledSquare` there and
  viewing the result as [64, 1024, 1024] again is `scaledSquare` of the original array.
-/
import Idealize.ShloMosaic.PureOps
import Idealize.ShloMosaic.Lib.Pipeline.Value

noncomputable section

namespace Cert.ScaledSquare

open Idealize.ShloMosaic

variable {F : FTy → Type} [FloatOps F]

/-- `(x i · x i) · c` at every index `i`, `c` the f32 word `0x3DCCCCCD`. -/
def scaledSquare {s : Shape} (x : FVec F s .f32) : FVec F s .f32 :=
  fun i => FloatOps.mulf (FloatOps.mulf (x i) (x i)) (FloatOps.ofBits .f32 0x3DCCCCCD#32)

/-- An elementwise function commutes with a row-major re-indexing: the element of the re-shaped
    result at `j` is computed from the element of `x` that the re-shaping puts at `j`. -/
theorem scaledSquare_shapeCast {s t : Shape} (x : FVec F s .f32) (h : s.ShapeCasts t) :
    shapeCast t (scaledSquare x) h = scaledSquare (shapeCast t x h) := rfl

/-- Re-shape, apply the elementwise function, re-shape back: the two re-shapings cancel, since
    both keep the row-major order of the elements. -/
theorem scaledSquare_there_and_back {s t : Shape} (x : FVec F s .f32) (h : s.ShapeCasts t) (h' : t.ShapeCasts s) :
    shapeCast s (scaledSquare (shapeCast t x h)) h' = scaledSquare x := by
  rw [← scaledSquare_shapeCast, shapeCast_shapeCast]

end Cert.ScaledSquare

end
-- ==== Proof.KernelBlocks.lean ====
/-
  What the kernel's launch leaves in its output array.

  The kernel is launched on the [65536, 1024] view `v` of the argument (a host re-shaping of the
  [64, 1024, 1024] array, then the copy into the result's own buffer that the input/output alias
  asks for).  The grid has 32 points; point `t` fetches rows `2048·t … 2048·t + 2047` of `v` (all
  1024 columns), its body computes `(b · b) · c` on that block `b` element by element, and the
  result is written back to the same rows of the output array.

  Three facts, in order:
  * the body's value on a block is `scaledSquare` of the block (`body_eq`);
  * so what point `t` writes back is rows `2048·t …` of `scaledSquare v`: the input block and the
    output block are the same rows, and an elementwise function of a block of `v` is the block of
    the function of `v` (`written_back`);
  * every row `r` of the output lies in the block of the point `r / 2048`, so the 32 blocks cover
    the array (`covered`) and the array ends as `scaledSquare v` everywhere (`output_array`).
-/
import proofs.«129902_j58548994179107_2_alg».proof.Proof.Gen.KernelIdeal.Frame
import proofs.«129902_j58548994179107_2_alg».proof.Proof.ScaledSquare
import Idealize.ShloMosaic.Lib.Pipeline.Value
import Idealize.ShloMosaic.Lib.StableHlo.Run

noncomputable section

namespace Cert.KernelIdeal.Blocks

open Cert.KernelIdeal Cert.KernelIdeal.Gen Cert.ScaledSquare
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's rectangle starts at the origin of the staging buffer. -/
theorem origin : (![0, 0] : Fin 2 → Nat) = fun _ => 0 := funext fun a => by fin_cases a <;> rfl

/-- The body's arithmetic on a loaded block: a cast to the block's own shape (the identity), the
    product of the block with itself, and the product with the splat constant — `scaledSquare`. -/
theorem body_eq (b : Vec F S2048x1024 .f32) : k0_pay1 b = scaledSquare (s := S2048x1024) b := by
  unfold k0_pay1
  simp only [shapeCast_self]
  rfl

/-- The two windows move together: at point `t` both sit at block row `t`, block column `0`. -/
theorem block_position : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is the rows `2048·t … 2048·t + 2047` of `scaledSquare` of the
    array the input window is staged from. -/
theorem written_back (c : Dev nD) (t : Fin cfg0.N) :
    (dats m 0 c).flushed 1 t
      = ((cfg0.win 1).blk t).view.read (Elt F) (scaledSquare (s := S65536x1024) (V m c main_v0)) := by
  show (cfg0.win 1).cut (grid0.coords t) ((dats m 0 c).after 1 t) = _
  rw [after0_1]
  unfold out0_1
  rw [View.canon_unit_zero origin]
  simp only [View.ld_unit_zero (S := S2048x1024) origin]
  rw [body_eq]
  obtain ⟨e0, e1, e2, e3⟩ := block_position t
  funext j
  show scaledSquare (s := S2048x1024) (iblk m c 0 t) j = scaledSquare (s := S65536x1024) (V m c main_v0) (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  show scaledSquare (s := S65536x1024) (V m c main_v0) (((cfg0.win 0).blk t).view.emb j) = _
  rw [h0]

/-- An index of the output array is in point `t`'s block iff each coordinate is in the block's
    range on its axis. -/
theorem mem_block (t : Fin cfg0.N) (i : S65536x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v1).slice (win0_1.rect t)).set ↔ _
  rw [View.set_slice_whole, Rect.mem_set_unit]
  exact Iff.rfl

/-- Row `r` of the output array is in the block of point `r / 2048`: the 32 blocks of 2048 rows
    cover the 65536 rows. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  have hN : (i 0).val / 2048 < cfg0.N := by show _ < grid0.N; rw [N_0]; omega
  obtain ⟨-, -, e2, e3⟩ := block_position ⟨(i 0).val / 2048, hN⟩
  refine ⟨⟨(i 0).val / 2048, hN⟩, flush0_1 _, ?_⟩
  rw [mem_block]
  intro a
  match a with
  | ⟨0, _⟩ =>
    show win0_1.index ⟨(i 0).val / 2048, hN⟩ (0 : Fin 2) * 2048 ≤ (i 0).val
      ∧ (i 0).val < win0_1.index ⟨(i 0).val / 2048, hN⟩ (0 : Fin 2) * 2048 + 2048
    rw [e2]; show (i 0).val / 2048 * 2048 ≤ (i 0).val ∧ (i 0).val < (i 0).val / 2048 * 2048 + 2048; omega
  | ⟨1, _⟩ =>
    show win0_1.index ⟨(i 0).val / 2048, hN⟩ (1 : Fin 2) * 1024 ≤ (i 1).val
      ∧ (i 1).val < win0_1.index ⟨(i 0).val / 2048, hN⟩ (1 : Fin 2) * 1024 + 1024
    rw [e3]; omega

/-- After the launch the output array is `scaledSquare` of the array the input window was
    staged from, at every index. -/
theorem output_array (c : Dev nD) :
    (dats m 0 c).arrAt 1 cfg0.N = scaledSquare (s := S65536x1024) (V m c main_v0) :=
  (dats m 0 c).arrAt_eq_of_cover 1 _ (fun t _ => written_back m c t) covered

end Cert.KernelIdeal.Blocks

end
-- ==== Proof.KernelResult.lean ====
/-
  The kernel program's result as a function of its argument.

  Around the launch the program has three host lines.  Before it: the argument `x`, of shape
  [64, 1024, 1024], is re-shaped to [65536, 1024] (the same elements in row-major order) — call
  it `v` — and copied into the buffer the launch writes.  After it: the launch's output array is
  re-shaped back to [64, 1024, 1024], and that is the result.

  The launch leaves `scaledSquare v` in its output array (the blocks' cover, proved beside the
  blocks).  So the result is `scaledSquare v` re-shaped back, and since `scaledSquare` acts element
  by element the two re-shapings cancel: the result is `scaledSquare x`.
-/
import proofs.«129902_j58548994179107_2_alg».proof.Proof.KernelBlocks

noncomputable section

namespace Cert.KernelIdeal.Result

open Cert.KernelIdeal Cert.KernelIdeal.Gen Cert.KernelIdeal.Blocks Cert.ScaledSquare
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The array the input window is staged from is the argument viewed as [65536, 1024]. -/
theorem staged_array (c : Dev nD) :
    (V m c main_v0 : S65536x1024.Idx → Elt F .f32)
      = shapeCast S65536x1024 (m ((c : Thread nD τ).loc main_arg0)) shapeCasts_S64x1024x1024_S65536x1024 := by
  show StableHlo.after hostOps0 (fun b => m (c, b)) (Proc.devRef .tc main_v0) = _
  after_results
  rfl

/-- The program's result buffer after the host line that follows the launch: the launch's output
    array viewed as [64, 1024, 1024], which is `scaledSquare` of the argument. -/
theorem result_eq (c : Dev nD) :
    (Pipeline.afterTail₀ cfgs (dats m) 0 (V0 m) [hostOps1] c main_v2 : S64x1024x1024.Idx → Elt F .f32)
      = scaledSquare (s := S64x1024x1024) (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = scaledSquare (s := S65536x1024)
        (shapeCast S65536x1024 (m ((c : Thread nD τ).loc main_arg0)) shapeCasts_S64x1024x1024_S65536x1024) :=
    (Pipeline.withArrays_arr spec0 launch0.win.arr_inj c _ _ 1).trans
      ((output_array m c).trans (congrArg (scaledSquare (s := S65536x1024)) (staged_array m c)))
  rw [hw]
  exact scaledSquare_there_and_back (s := S64x1024x1024) (t := S65536x1024) _ _ _

/-- Every weakly fair execution of the kernel program terminates; the result buffer then holds
    `scaledSquare` of the argument as launched, and the argument buffer is unchanged.  The result
    buffer is written by the last host line only, and no line writes the argument buffer. -/
theorem run : θ_run defs (onTc (τ := τ) (main (F := F))) ⟨m, fun _ => 0, ρ⟩ fun r => ∀ c : Dev nD,
      r.2.mem ((c : Thread nD τ).loc main_v2) = scaledSquare (s := S64x1024x1024) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Result

end
-- ==== Proof.ReferenceResult.lean ====
/-
  The reference's result as a function of its argument.

  The reference multiplies the argument `x` by itself, broadcasts the scalar constant `c` (the
  f32 word `0x3DCCCCCD`) to the argument's shape, and multiplies the two: at every index
  `(x i · x i) · c`, which is `scaledSquare x` by definition, whatever the float operations are.
-/
import proofs.«129902_j58548994179107_2_alg».proof.Proof.Gen.ReferenceIdeal.Read
import proofs.«129902_j58548994179107_2_alg».proof.Proof.ScaledSquare

noncomputable section

namespace Cert.ReferenceIdeal.Result

open Cert.ReferenceIdeal Cert.ReferenceIdeal.Gen Cert.ReferenceIdeal.Read Cert.ScaledSquare
open Idealize.ShloMosaic Idealize.ShloMosaic.TcCoe Idealize.SL.Sem

variable {F : FTy → Type} [FloatOps F]

/-- The last stage of the reference — the product of the square with the broadcast constant —
    read at an index: the square at that index times the one element of the constant. -/
theorem result_eq (x : (⟨S64x1024x1024, .f32⟩ : BufTy).Contents (Elt F)) :
    val_main_v2 (F := F) x = scaledSquare (s := S64x1024x1024) x := by
  funext i
  rw [val_main_v2_apply, val_main_v0_apply, val_main_v1_apply, val_main_cst_apply]
  rfl

end Cert.ReferenceIdeal.Result

end
-- ==== Proof.lean ====
/-
  The kernel squares its argument and scales it by a constant; so does the reference.

  The argument `x` is an f32 array of shape [64, 1024, 1024].  The reference computes, on the
  host, `(x · x) · c` element by element, `c` the f32 constant with binary word `0x3DCCCCCD` (the
  float nearest one tenth).  The kernel program views `x` as [65536, 1024], runs a grid of 32
  points over blocks of 2048 rows — each point loads its block `b`, computes `(b · b) · c` with
  the same constant word, and stores it to the same rows of the output —, and views the output
  as [64, 1024, 1024] again.

  Both results are the one function `scaledSquare x` (Proof/ScaledSquare.lean): the same two
  products of the same operands in the same order, with the same constant, at every index.  No
  law of arithmetic is used, so nothing is asked of the inputs (the finiteness precondition is
  never opened) and the constant is never evaluated; what is proved is where each element goes:
  the 32 blocks cover the [65536, 1024] array, each block's output is the block of the whole
  array's output (Proof/KernelBlocks.lean), and the two changes of shape around the launch
  cancel because the function acts element by element (Proof/KernelResult.lean).  The
  reference's side is its run read one operation at a time (Proof/ReferenceResult.lean).

  The ideal reading of the kernel rewrote no operation, so the kernel at the ideal reading is the
  printed kernel's own text and that conjunct is `True`.  The three frame conjuncts (termination, no
  fault, the argument unchanged) are the generated frame of each kernel program and, for the
  reference, its generated run with the result dropped.
-/
import proofs.«129902_j58548994179107_2_alg».proof.Defs
import proofs.«129902_j58548994179107_2_alg».proof.Proof.Gen.Kernel
import proofs.«129902_j58548994179107_2_alg».proof.Proof.Gen.Kernel.Skeleton
import proofs.«129902_j58548994179107_2_alg».proof.Proof.Gen.Kernel.Launch
import proofs.«129902_j58548994179107_2_alg».proof.Proof.Gen.Kernel.Points
import proofs.«129902_j58548994179107_2_alg».proof.Proof.Gen.Kernel.Frame
import proofs.«129902_j58548994179107_2_alg».proof.Proof.Gen.KernelIdeal
import proofs.«129902_j58548994179107_2_alg».proof.Proof.Gen.KernelIdeal.Skeleton
import proofs.«129902_j58548994179107_2_alg».proof.Proof.Gen.KernelIdeal.Launch
import proofs.«129902_j58548994179107_2_alg».proof.Proof.Gen.KernelIdeal.Points
import proofs.«129902_j58548994179107_2_alg».proof.Proof.Gen.KernelIdeal.Frame
import proofs.«129902_j58548994179107_2_alg».proof.Proof.Gen.ReferenceIdeal
import proofs.«129902_j58548994179107_2_alg».proof.Proof.Gen.Pre_finite_inputs
import proofs.«129902_j58548994179107_2_alg».proof.Proof.Gen.ReferenceIdeal.Run
import proofs.«129902_j58548994179107_2_alg».proof.Proof.Gen.ReferenceIdeal.Read
import proofs.«129902_j58548994179107_2_alg».proof.Proof.ScaledSquare
import proofs.«129902_j58548994179107_2_alg».proof.Proof.KernelBlocks
import proofs.«129902_j58548994179107_2_alg».proof.Proof.KernelResult
import proofs.«129902_j58548994179107_2_alg».proof.Proof.ReferenceResult
import Idealize.ShloMosaic.Adequacy
import Idealize.ShloMosaic.Init

noncomputable section

namespace Cert.Proof

open Idealize.ShloMosaic Idealize.ShloMosaic.TcCoe Idealize.SL.Sem Cert.ScaledSquare

/-- The printed kernel program terminates without a fault and leaves its argument as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading rewrote nothing: there is no conjunct to prove. -/
theorem preserves : Cert.preserves_Kernel_KernelIdeal := trivial

/-- Over the extended reals, from memories that agree on the argument `x`: the kernel program's
    result is `scaledSquare x` (its blocks' cover and the two changes of shape), the reference's
    result is `scaledSquare` of its own argument (its three operations read at an index), and the
    two arguments are equal by hypothesis. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Result.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
